-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S1600000x64 : Shape := ⟨2, ![1600000, 64]⟩
abbrev S5000x1 : Shape := ⟨2, ![5000, 1]⟩
abbrev S1x64 : Shape := ⟨2, ![1, 64]⟩
abbrev S1x1 : Shape := ⟨2, ![1, 1]⟩

abbrev nBuf : Space → Nat
  | .hbm => 103
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .f32⟩
  | .hbm, ⟨23, _⟩ => ⟨S1600000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x1, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S1600000x1, .f32⟩
  | .hbm, ⟨79, _⟩ => ⟨S1600000x64, .f32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S100000x64, .f32⟩
  | .hbm, ⟨86, _⟩ => ⟨S100000x1, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x1, .f32⟩
  | .hbm, ⟨96, _⟩ => ⟨S1600000x1, .f32⟩
  | .hbm, ⟨97, _⟩ => ⟨S1600000x1, .f32⟩
  | .hbm, ⟨98, _⟩ => ⟨S_, .f32⟩
  | .hbm, ⟨99, _⟩ => ⟨S100000x1, .f32⟩
  | .hbm, ⟨100, _⟩ => ⟨S1600000x1, .i32⟩
  | .hbm, ⟨101, _⟩ => ⟨S100000x1, .f32⟩
  | .hbm, ⟨102, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1, .f32⟩
  | .local _ .vmem, ⟨40, _⟩ => ⟨S5000x1, .f32⟩
  | .local _ .vmem, ⟨41, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x1_S5000x1_1_0_0_1_n_n_wf : DotDims.WF S5000x64 S64x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1.size a ≤ S1.size a
  hwx5_3 : ∀ i : grid5.Coords, EltTy.bits .f32 = 32 ∨ (Rect.block (s := S1) S1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S100000x1.size a
  hwx5_4 : ∀ i : grid5.Coords, EltTy.bits .f32 = 32 ∨ (Rect.block (s := S100000x1) S5000x1.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S_, .f32⟩
  | 88 => ⟨S1600000, .f32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S1600000x1, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x64, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x1, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x1, .f32⟩
  | 58 => ⟨S1600000x1, .f32⟩
  | 59 => ⟨S1600000x1, .f32⟩
  | 60 => ⟨S_, .f32⟩
  | 61 => ⟨S100000x1, .f32⟩
  | 62 => ⟨S1600000x1, .i32⟩
  | 63 => ⟨S100000x1, .f32⟩
  | 64 => ⟨S100000, .f32⟩
  | 65 => ⟨S100000x1, .f32⟩
  | 66 => ⟨S100000x1, .f32⟩
  | 67 => ⟨S100000x1, .f32⟩
  | 68 => ⟨S1x1, .f32⟩
  | 69 => ⟨S100000x1, .f32⟩
  | 70 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call1_cst : Ref sig .tc := ⟨.hbm, 137, rfl⟩
abbrev main_call1_v0 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_c_23 : Ref sig .tc := ⟨.hbm, 143, rfl⟩
abbrev main_v106 : Ref sig .tc := ⟨.hbm, 144, rfl⟩
abbrev main_v107 : Ref sig .tc := ⟨.hbm, 145, rfl⟩
abbrev main_c_24 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_v113 : Ref sig .tc := ⟨.hbm, 153, rfl⟩
abbrev main_cst_26 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_27 : Ref sig .tc := ⟨.hbm, 158, rfl⟩
abbrev main_v117 : Ref sig .tc := ⟨.hbm, 159, rfl⟩
abbrev main_v118 : Ref sig .tc := ⟨.hbm, 160, rfl⟩
abbrev main_c_28 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_29 : Ref sig .tc := ⟨.hbm, 167, rfl⟩
abbrev main_v124 : Ref sig .tc := ⟨.hbm, 168, rfl⟩
abbrev main_v125 : Ref sig .tc := ⟨.hbm, 169, rfl⟩
abbrev main_c_30 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_31 : Ref sig .tc := ⟨.hbm, 177, rfl⟩
abbrev main_v132 : Ref sig .tc := ⟨.hbm, 178, rfl⟩
abbrev main_v133 : Ref sig .tc := ⟨.hbm, 179, rfl⟩
abbrev main_c_32 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_33 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x1_S100000x1_1_0_0_1_n_n_wf : DotDims.WF S100000x64 S64x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.KernelRun.lean ====
/-
  The idealized kernel's run with its result named.

  The program is ten segments — four stretches of host operations and six launched regions — and its run leaves
  every unscoped buffer of a core at the last boundary's contents: the fold of the stretches' operations and the
  regions' write-backs from the launch memory.  The frame claim reads only the arguments off that final state; read
  the result buffer too, and the run says where the result comes from.
-/
import proofs.«133984_j64776696758632_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Run

end
-- ==== Proof.Spec.lean ====
/-
  The function both programs compute.

  A three-layer graph convolution over `N = 100000` nodes and `E = 1600000` edges `(src e, dst e)`.  With
  `deg i = 1 + #{e | dst e = i}`, `dinv = deg^(-1/2)` and the edge weight `nrm e = dinv (src e) * dinv (dst e)`,
  one layer sends a node array `h` to

      out i j = (Σ_{e : dst e = i} h (src e) j * nrm e  +  h i j * dinv i * dinv i)  +  b j

  and the network is `layer₃ (relu (layer₂ (relu (layer₁ (x · W₁)) · W₂)) · W₃)`.  The gathers along `src`, the
  scatter-additions along `dst` and the wrap of a negative index are the host's own operations on both sides; they
  are named here once and never opened.  What the two programs arrange differently is only the dense part: a
  product taken row block by row block, and the pointwise combination applied block by block.
-/
import proofs.«133984_j64776696758632_1_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

/-- An array of the shape and element type named. -/
abbrev Arr (F : FTy → Type) (S : Shape) (d : EltTy) := (⟨S, d⟩ : BufTy).Contents (Elt F)

/-- A negative edge endpoint counts from the end: `i < 0 ? i + N : i`. -/
def wrapIx (i : Arr F S1600000 .i32) : Arr F S1600000 .i32 :=
  select (cmpi .slt i (broadcastInDim S1600000 ![] bcast_S_S1600000 (constantI S_ 32 0#32)))
    (addi i (broadcastInDim S1600000 ![] bcast_S_S1600000 (constantI S_ 32 100000#32))) i

/-- An edge list as a column of one-element index vectors. -/
def col (i : Arr F S1600000 .i32) : Arr F S1600000x1 .i32 :=
  broadcastInDim S1600000x1 ![0] bcast_S1600000_S1600000x1_0 i

/-- The neighbour sum of a 64-column node array: gather the rows `h (src e)`, weigh them by `nrm e`, and add each
    into row `dst e` of a zero array. -/
def aggr64 (h : Arr F S100000x64 .f32) (src dst : Arr F S1600000 .i32) (nrm : Arr F S1600000 .f32) :
    Arr F S100000x64 .f32 :=
  Host.scatterAdd scatter_S100000x64_S1600000x1_S1600000x64_1_0_0_1
    (broadcastInDim S100000x64 ![] bcast_S_S100000x64 (constant S_ .f32 0x00000000#32))
    (col dst)
    (mulf (Host.gather gather_S100000x64_S1600000x1_S1600000x64_1_0_n_n_0_1_164 h (col (wrapIx src)))
      (broadcastInDim S1600000x64 ![0, 1] bcast_S1600000x1_S1600000x64_0_1
        (broadcastInDim S1600000x1 ![0] bcast_S1600000_S1600000x1_0 nrm)))

/-- The neighbour sum of a one-column node array. -/
def aggr1 (h : Arr F S100000x1 .f32) (src dst : Arr F S1600000 .i32) (nrm : Arr F S1600000 .f32) :
    Arr F S100000x1 .f32 :=
  Host.scatterAdd scatter_S100000x1_S1600000x1_S1600000x1_1_0_0_1
    (broadcastInDim S100000x1 ![] bcast_S_S100000x1 (constant S_ .f32 0x00000000#32))
    (col dst)
    (mulf (Host.gather gather_S100000x1_S1600000x1_S1600000x1_1_0_n_n_0_1_11 h (col (wrapIx src)))
      (broadcastInDim S1600000x1 ![0] bcast_S1600000_S1600000x1_0 nrm))

/-- A 64-column layer's pointwise part with its activation: `max ((agg + h * d) + b, 0)`, the self-loop weight
    `d` a column broadcast along the rows' 64 entries and the bias `b` a row broadcast down the nodes. -/
def combine64 (h agg : Arr F S100000x64 .f32) (d : Arr F S100000x1 .f32) (b : Arr F S64 .f32) :
    Arr F S100000x64 .f32 :=
  maximumf
    (addf (addf agg (mulf h (broadcastInDim S100000x64 ![0, 1] bcast_S100000x1_S100000x64_0_1 d)))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The last layer's pointwise part (one column, no activation): `(agg + h * d) + b`. -/
def combine1 (h agg d : Arr F S100000x1 .f32) (b : Arr F S1 .f32) : Arr F S100000x1 .f32 :=
  addf (addf agg (mulf h d))
    (broadcastInDim S100000x1 ![0, 1] bcast_S1x1_S100000x1_0_1 (broadcastInDim S1x1 ![1] bcast_S1_S1x1_1 b))

/-- The dense product of a node array with a 64 × 64 weight. -/
def mm64 (a : Arr F S100000x64 .f32) (w : Arr F S64x64 .f32) : Arr F S100000x64 .f32 :=
  Host.dotGeneral dot_S100000x64_S64x64_S100000x64_1_0_0_1_n_n none a w

/-- The dense product of a node array with a 64 × 1 weight. -/
def mm1 (a : Arr F S100000x64 .f32) (w : Arr F S64x1 .f32) : Arr F S100000x1 .f32 :=
  Host.dotGeneral dot_S100000x64_S64x1_S100000x1_1_0_0_1_n_n none a w

/-- The edge sources and targets: the two rows of the edge list. -/
def srcOf (e : Arr F S2x1600000 .i32) : Arr F S1600000 .i32 :=
  shapeCast _ (extractStridedSlice S1x1600000 ![0, 0] e slices_S2x1600000_S1x1600000_0_0) shapeCasts_S1x1600000_S1600000
def dstOf (e : Arr F S2x1600000 .i32) : Arr F S1600000 .i32 :=
  shapeCast _ (extractStridedSlice S1x1600000 ![1, 0] e slices_S2x1600000_S1x1600000_1_0) shapeCasts_S1x1600000_S1600000

/-- `dinv = (1 + in-degree)^(-1/2)`: ones scattered along the wrapped targets into a zero array, plus one. -/
def dinvOf (e : Arr F S2x1600000 .i32) : Arr F S100000 .f32 :=
  Host.rsqrt (addf
    (Host.scatterAdd scatter_S100000_S1600000x1_S1600000_n_0_0_1
      (broadcastInDim S100000 ![] bcast_S_S100000 (constant S_ .f32 0x00000000#32))
      (col (wrapIx (dstOf e)))
      (broadcastInDim S1600000 ![] bcast_S_S1600000 (constant S_ .f32 0x3F800000#32)))
    (broadcastInDim S100000 ![] bcast_S_S100000 (constant S_ .f32 0x3F800000#32)))

/-- The edge weight `dinv (src e) * dinv (dst e)`. -/
def nrmOf (e : Arr F S2x1600000 .i32) : Arr F S1600000 .f32 :=
  mulf (Host.gather gather_S100000_S1600000x1_S1600000_n_0_n_n_0_1_1 (dinvOf e) (col (wrapIx (srcOf e))))
    (Host.gather gather_S100000_S1600000x1_S1600000_n_0_n_n_0_1_1 (dinvOf e) (col (wrapIx (dstOf e))))

/-- The self-loop weight `dinv i * dinv i` as a column. -/
def selfOf (e : Arr F S2x1600000 .i32) : Arr F S100000x1 .f32 :=
  broadcastInDim S100000x1 ![0] bcast_S100000_S100000x1_0 (mulf (dinvOf e) (dinvOf e))

/-- One 64-column layer with its activation: the product, its neighbour sum, the self loop and the bias. -/
def layer64 (a : Arr F S100000x64 .f32) (e : Arr F S2x1600000 .i32) (w : Arr F S64x64 .f32) (b : Arr F S64 .f32) :
    Arr F S100000x64 .f32 :=
  combine64 (mm64 a w) (aggr64 (mm64 a w) (srcOf e) (dstOf e) (nrmOf e)) (selfOf e) b

/-- The last layer: one output column, no activation. -/
def layer1 (a : Arr F S100000x64 .f32) (e : Arr F S2x1600000 .i32) (w : Arr F S64x1 .f32) (b : Arr F S1 .f32) :
    Arr F S100000x1 .f32 :=
  combine1 (mm1 a w) (aggr1 (mm1 a w) (srcOf e) (dstOf e) (nrmOf e)) (selfOf e) b

/-- THE NETWORK: three layers over one edge list. -/
def net (x : Arr F S100000x64 .f32) (e : Arr F S2x1600000 .i32) (w1 : Arr F S64x64 .f32) (b1 : Arr F S64 .f32)
    (w2 : Arr F S64x64 .f32) (b2 : Arr F S64 .f32) (w3 : Arr F S64x1 .f32) (b3 : Arr F S1 .f32) : Arr F S100000x1 .f32 :=
  layer1 (layer64 (layer64 x e w1 b1) e w2 b2) e w3 b3

end Cert.Spec

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«133984_j64776696758632_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.Product1.lean ====
/-
  The first layer's dense product, `x · W₁`, as the first region leaves it.

  The region cuts the 100000 rows of its left operand into 20 blocks of 5000 and, at grid point `t`, writes rows
  `5000 t … 5000 t + 4999` of the result: the product of that row block with the whole weight, accumulated from
  zero.  An entry `(5000 t + p, q)` of a product depends on row `5000 t + p` of the left operand only, and the 20
  row blocks fill the array, so what the region leaves is the whole product — as a sum over the 64 contracted
  entries on the extended reals, where the change of float format before the product is the identity.
-/
import proofs.«133984_j64776696758632_1_alg».proof.Proof.Gen.KernelIdeal.Frame
import proofs.«133984_j64776696758632_1_alg».proof.Proof.Spec
import proofs.«133984_j64776696758632_1_alg».proof.Proof.LibHostDot
import Idealize.ShloMosaic.Lib.Pipeline.Value
import Idealize.ShloMosaic.Lib.ValueIdx

set_option maxRecDepth 16384

noncomputable section

open scoped BigOperators

namespace Cert.KernelIdeal.Product1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand and the result move one row block per point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000 t … 5000 t + 4999` of its array. -/
theorem lhs_block (c : Dev nD) (t : Fin cfg0.N) (x : S5000x64.Idx) (k : S100000x64.Idx)
    (hk0 : (k 0).val = 5000 * t.val + (x 0).val) (hk1 : (k 1).val = (x 1).val) :
    (iblk0 V c 0 t : Vec Ideal S5000x64 .f32) x = (V c main_arg0 : S100000x64.Idx → Elt Ideal .f32) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 64 + 1 * (x 1).val = (k 1).val; rw [e1, hk1]; omega

/-- The weight's block at every point is the whole weight. -/
theorem rhs_block (c : Dev nD) (t : Fin cfg0.N) (x : S64x64.Idx) :
    (iblk0 V c 1 t : Vec Ideal S64x64 .f32) x = (V c main_arg2 : S64x64.Idx → Elt Ideal .f32) x := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t 0 * 64 + 1 * (x 0).val = (x 0).val; rw [e2]; omega
  | ⟨1, _⟩ => show win0_1.index t 1 * 64 + 1 * (x 1).val = (x 1).val; rw [e3]; omega

/-- The body's stored value at `(p, q)`: the sum over the contracted axis. -/
theorem pay_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) :=
  Cert.LibPlainDot.matmul_zero_apply dot_S5000x64_S64x64_S5000x64_1_0_0_1_n_n_wf none x0 x1 p q

/-- The whole product at an index: the sum over the contracted axis. -/
theorem whole_apply (a : Cert.Spec.Arr Ideal Cert.ReferenceIdeal.S100000x64 .f32) (w : Cert.Spec.Arr Ideal Cert.ReferenceIdeal.S64x64 .f32)
    (i : S100000x64.Idx) :
    Cert.Spec.mm64 (F := Ideal) a w i = ∑ k : Fin 64, a (ix2 (i 0) k) * w (ix2 k (i 1)) := by
  conv_lhs => rw [eq_ix2 i]
  exact Cert.LibHostDot.hostDot_apply Cert.ReferenceIdeal.Gen.dot_S100000x64_S64x64_S100000x64_1_0_0_1_n_n_wf none a w (i 0) (i 1)

/-- WHAT POINT `t` WRITES BACK is block `t` of the whole product of the arrays the region finds. -/
theorem flushed_eq (c : Dev nD) (t : Fin cfg0.N) :
    (dat0 V c).flushed 2 t = ((cfg0.win 2).blk t).view.read (Elt Ideal)
      (Cert.Spec.mm64 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨-, -, -, -, e4, e5⟩ := idx_facts t
  funext j
  obtain ⟨p, q, rfl⟩ : ∃ (p : Fin 5000) (q : Fin 64), j = ix2 p q := ⟨j 0, j 1, eq_ix2 j⟩
  rw [View.read_apply, whole_apply]
  refine (pay_apply _ _ p q).trans (Finset.sum_congr rfl fun k _ => ?_)
  have h0 : ((((cfg0.win 2).blk t).view.emb (ix2 p q)) 0).val = 5000 * t.val + p.val := by
    show win0_2.index t 0 * 5000 + 1 * p.val = _; rw [e4]; omega
  have h1 : ((((cfg0.win 2).blk t).view.emb (ix2 p q)) 1).val = q.val := by
    show win0_2.index t 1 * 64 + 1 * q.val = _; rw [e5]; omega
  rw [lhs_block V c t (ix2 p k) (ix2 ((((cfg0.win 2).blk t).view.emb (ix2 p q)) 0) k) h0 rfl, rhs_block V c t (ix2 k q)]
  congr 2
  funext a
  apply Fin.ext
  match a with
  | ⟨0, _⟩ => rfl
  | ⟨1, _⟩ => exact h1.symm

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- The 20 row blocks fill the array: row `r` is in block `r / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := idx_facts t
  refine ⟨t, flush0_2 t, ?_⟩
  rw [mem_blk]
  intro a
  match a with
  | ⟨0, _⟩ => show win0_2.index t 0 * 5000 ≤ (i 0).val ∧ (i 0).val < win0_2.index t 0 * 5000 + 5000; rw [e4]; show (i 0).val / 5000 * 5000 ≤ _ ∧ _ < (i 0).val / 5000 * 5000 + 5000; omega
  | ⟨1, _⟩ => show win0_2.index t 1 * 64 ≤ (i 1).val ∧ (i 1).val < win0_2.index t 1 * 64 + 64; rw [e5]; omega

/-- THE ARRAY THE REGION LEAVES: the whole product of the arrays it finds. -/
theorem final (c : Dev nD) :
    (dat0 V c).arrAt 2 cfg0.N = Cert.Spec.mm64 (F := Ideal) (V c main_arg0) (V c main_arg2) :=
  (dat0 V c).arrAt_eq_of_cover 2 _ (fun t _ => flushed_eq V c t) cover

end Cert.KernelIdeal.Product1

end
-- ==== Proof.Combine1.lean ====
/-
  The first layer's pointwise part with its activation, as the second region leaves it.

  At grid point `t` the region reads rows `5000 t … 5000 t + 4999` of the product `h`, of the neighbour sum `agg`
  and of the self-loop column `d`, and the whole bias `b`, and writes the same rows of
  `max ((agg + h * d) + b, 0)`, `d` stretched along a row's 64 entries and `b` down the rows.  Entry `(r, q)` of
  that array depends on row `r` of the three node arrays and on `b q` only, so the 20 row blocks together are the
  combination applied to the whole arrays.
-/
import proofs.«133984_j64776696758632_1_alg».proof.Proof.Gen.KernelIdeal.Frame
import proofs.«133984_j64776696758632_1_alg».proof.Proof.Spec
import proofs.«133984_j64776696758632_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Combine1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibColumn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three node arrays and the result move one row block per point, the bias stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The product's block at point `t` is rows `5000 t … 5000 t + 4999` of its array. -/
theorem h_block (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v33 : S100000x64.Idx → Elt Ideal .f32) k := by
  obtain ⟨e0, e1, -, -, -, -, -, -, -⟩ := idx_facts t
  unfold iblk1
  rw [View.read_apply]
  show V c main_v33 _ = V c main_v33 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The neighbour sum's block at point `t` is the same rows of its array. -/
theorem agg_block (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v46 : S100000x64.Idx → Elt Ideal .f32) k := by
  obtain ⟨-, -, e2, e3, -, -, -, -, -⟩ := idx_facts t
  unfold iblk1
  rw [View.read_apply]
  show V c main_v46 _ = V c main_v46 _
  congr 1
  funext a
  apply Fin.ext
  match a with
  | ⟨0, _⟩ => show win1_1.index t 0 * 5000 + 1 * (x 0).val = (k 0).val; rw [e2, hk0]; omega
  | ⟨1, _⟩ => show win1_1.index t 1 * 64 + 1 * (x 1).val = (k 1).val; rw [e3, hk1]; omega

/-- The self-loop column's block at point `t` is the same rows of the column. -/
theorem d_block (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v32 : S100000x1.Idx → Elt Ideal .f32) k := by
  obtain ⟨-, -, -, -, e4, e5, -, -, -⟩ := idx_facts t
  unfold iblk1
  rw [View.read_apply]
  show V c main_v32 _ = V c main_v32 _
  congr 1
  funext a
  apply Fin.ext
  match a with
  | ⟨0, _⟩ => show win1_2.index t 0 * 5000 + 1 * (x 0).val = (k 0).val; rw [e4, hk0]; omega
  | ⟨1, _⟩ => show win1_2.index t 1 * 1 + 1 * (x 1).val = (k 1).val; rw [e5, hk1]; omega

/-- The bias's block at every point is the whole bias. -/
theorem b_block (c : Dev nD) (t : Fin cfg1.N) (x : S64.Idx) :
    (iblk1 V c 3 t : Vec Ideal S64 .f32) x = (V c main_arg3 : S64.Idx → Elt Ideal .f32) x := by
  obtain ⟨-, -, -, -, -, -, e6, -, -⟩ := idx_facts t
  unfold iblk1
  rw [View.read_apply]
  show V c main_arg3 _ = V c main_arg3 _
  congr 1
  funext a
  apply Fin.ext
  match a with
  | ⟨0, _⟩ => show win1_3.index t 0 * 64 + 1 * (x 0).val = (x 0).val; rw [e6]; omega

/-- The body's stored value at `(p, q)`. -/
theorem pay_apply (v0 v2 : Vec Ideal S5000x64 .f32) (v4 : Vec Ideal S5000x1 .f32) (v9 : Vec Ideal S64 .f32) (p : Fin 5000) (q : Fin 64) :
    k1_pay1 v0 v2 v4 v9 (ix2 p q)
      = max ((v0 (ix2 p q) + v2 (ix2 p q) * v4 (ix2 p (0 : Fin 1))) + v9 (ix1 q)) (Ideal.ofBits .f32 0x00000000#32) := by
  simp only [k1_pay1, shapeCast_self, maximumf_apply, addf_apply, mulf_apply, broadcast_apply,
    broadcastTo_a1_ab_apply, broadcastTo_1b_ab_apply, shapeCast_a_1a_apply]
  rfl

/-- The whole combination at `(r, q)`. -/
theorem whole_apply (h agg : Vec Ideal Cert.ReferenceIdeal.S100000x64 .f32) (d : Vec Ideal Cert.ReferenceIdeal.S100000x1 .f32)
    (b : Vec Ideal Cert.ReferenceIdeal.S64 .f32) (r : Fin 100000) (q : Fin 64) :
    Cert.Spec.combine64 (F := Ideal) h agg d b (ix2 r q)
      = max ((agg (ix2 r q) + h (ix2 r q) * d (ix2 r (0 : Fin 1))) + b (ix1 q)) (Ideal.ofBits .f32 0x00000000#32) := by
  simp only [Cert.Spec.combine64, maximumf_apply, addf_apply, mulf_apply]
  rw [bcastInDim_a1_ab_apply, bcastInDim_1b_ab_apply, bcastInDim_b_1b_apply,
    bcastInDim_scalar_apply _ _ _ (fun a => a.elim0)]
  rfl

/-- WHAT POINT `t` WRITES BACK is block `t` of the combination of the arrays the region finds. -/
theorem flushed_eq (c : Dev nD) (t : Fin cfg1.N) :
    (dat1 V c).flushed 4 t = ((cfg1.win 4).blk t).view.read (Elt Ideal)
      (Cert.Spec.combine64 (F := Ideal) (V c main_v33) (V c main_v46) (V c main_v32) (V c main_arg3)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x1) hz2, View.ld_unit_zero (S := S64) hz1]
  obtain ⟨-, -, -, -, -, -, -, e7, e8⟩ := idx_facts t
  have ht : t.val < 20 := lt_of_lt_of_eq t.isLt N_1
  funext j
  obtain ⟨p, q, rfl⟩ : ∃ (p : Fin 5000) (q : Fin 64), j = ix2 p q := ⟨j 0, j 1, eq_ix2 j⟩
  have hr : 5000 * t.val + p.val < 100000 := by have := p.isLt; omega
  have hemb : ((cfg1.win 4).blk t).view.emb (ix2 p q) = ix2 (⟨5000 * t.val + p.val, hr⟩ : Fin 100000) q := by
    funext a
    apply Fin.ext
    match a with
    | ⟨0, _⟩ => show win1_4.index t 0 * 5000 + 1 * p.val = 5000 * t.val + p.val; rw [e7]; omega
    | ⟨1, _⟩ => show win1_4.index t 1 * 64 + 1 * q.val = q.val; rw [e8]; omega
  rw [View.read_apply, hemb, whole_apply]
  refine (pay_apply _ _ _ _ p q).trans ?_
  rw [agg_block V c t (ix2 p q) (ix2 (⟨5000 * t.val + p.val, hr⟩ : Fin 100000) q) rfl rfl,
    h_block V c t (ix2 p q) (ix2 (⟨5000 * t.val + p.val, hr⟩ : Fin 100000) q) rfl rfl,
    d_block V c t (ix2 p (0 : Fin 1)) (ix2 (⟨5000 * t.val + p.val, hr⟩ : Fin 100000) (0 : Fin 1)) rfl rfl,
    b_block V c t (ix1 q)]
  rfl

/-- An index of the array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v47).slice (win1_4.rect t)).set ↔ _
  rw [View.set_slice_whole, Rect.mem_set_unit]
  exact Iff.rfl

/-- The 20 row blocks fill the array: row `r` is in block `r / 5000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, e7, e8⟩ := idx_facts t
  refine ⟨t, flush1_4 t, ?_⟩
  rw [mem_blk]
  intro a
  match a with
  | ⟨0, _⟩ => show win1_4.index t 0 * 5000 ≤ (i 0).val ∧ (i 0).val < win1_4.index t 0 * 5000 + 5000; rw [e7]; show (i 0).val / 5000 * 5000 ≤ _ ∧ _ < (i 0).val / 5000 * 5000 + 5000; omega
  | ⟨1, _⟩ => show win1_4.index t 1 * 64 ≤ (i 1).val ∧ (i 1).val < win1_4.index t 1 * 64 + 64; rw [e8]; omega

/-- THE ARRAY THE REGION LEAVES: the combination of the arrays it finds. -/
theorem final (c : Dev nD) :
    (dat1 V c).arrAt 4 cfg1.N
      = Cert.Spec.combine64 (F := Ideal) (V c main_v33) (V c main_v46) (V c main_v32) (V c main_arg3) :=
  (dat1 V c).arrAt_eq_of_cover 4 _ (fun t _ => flushed_eq V c t) cover

end Cert.KernelIdeal.Combine1

end
-- ==== Proof.Layer1.lean ====
/-
  The first layer, boundary by boundary.

  The program's buffers at each boundary between a stretch of host operations and a launched region, read back to the
  arguments: the first stretch computes the edge endpoints, the edge weights and the self-loop column from the edge
  list and touches nothing else; the first region leaves `x · W₁`; the second stretch its neighbour sum; the second
  region the layer's activated output.  A buffer a segment does not write keeps what it held.
-/
import proofs.«133984_j64776696758632_1_alg».proof.Proof.Gen.KernelIdeal.Frame
import proofs.«133984_j64776696758632_1_alg».proof.Proof.Spec
import proofs.«133984_j64776696758632_1_alg».proof.Proof.LibColumn
import proofs.«133984_j64776696758632_1_alg».proof.Proof.Product1
import proofs.«133984_j64776696758632_1_alg».proof.Proof.Combine1
import Idealize.ShloMosaic.Lib.StableHlo.Run

set_option maxRecDepth 16384

noncomputable section

namespace Cert.KernelIdeal.Layers

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## After the first stretch of host operations -/
theorem at1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
theorem at1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
theorem at1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
theorem at1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem at1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
theorem at1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
theorem at1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl
theorem at1_v1 (c : Dev nD) : W1 m ρ c (Proc.devRef .tc main_v1) = (srcOf (F := Ideal) (m ((c : Thread nD τ).loc main_arg1))) := by
  show StableHlo.after hostOps0 (W0 m ρ c) (Proc.devRef .tc main_v1) = _
  after_results_simp <;> rfl
theorem at1_v3 (c : Dev nD) : W1 m ρ c (Proc.devRef .tc main_v3) = (dstOf (F := Ideal) (m ((c : Thread nD τ).loc main_arg1))) := by
  show StableHlo.after hostOps0 (W0 m ρ c) (Proc.devRef .tc main_v3) = _
  after_results_simp <;> rfl
theorem at1_v30 (c : Dev nD) : W1 m ρ c (Proc.devRef .tc main_v30) = (nrmOf (F := Ideal) (m ((c : Thread nD τ).loc main_arg1))) := by
  show StableHlo.after hostOps0 (W0 m ρ c) (Proc.devRef .tc main_v30) = _
  after_results_simp <;> rfl
/-- The self-loop column: the program casts `dinv * dinv` to a column where the specification broadcasts it; one array. -/
theorem at1_v32 (c : Dev nD) : W1 m ρ c (Proc.devRef .tc main_v32) = (selfOf (F := Ideal) (m ((c : Thread nD τ).loc main_arg1))) :=
  (show StableHlo.after hostOps0 (W0 m ρ c) (Proc.devRef .tc main_v32)
      = (shapeCast (⟨2, ![100000, 1]⟩ : Shape)
          (mulf (dinvOf (F := Ideal) (m ((c : Thread nD τ).loc main_arg1))) (dinvOf (F := Ideal) (m ((c : Thread nD τ).loc main_arg1))) : (⟨1, ![100000]⟩ : Shape).Idx → Ideal .f32)
          shapeCasts_S100000_S100000x1 : (⟨2, ![100000, 1]⟩ : Shape).Idx → Ideal .f32) by
    after_results_simp <;> rfl).trans
  (Cert.LibColumn.shapeCast_a_a1_eq_bcastInDim _ _ _)

/-! ## After the first region: the product `x · W₁` -/
theorem at2_v33 (c : Dev nD) : W2 m ρ c (Proc.devRef .tc main_v33) = (mm64 (F := Ideal) (m ((c : Thread nD τ).loc main_arg0)) (m ((c : Thread nD τ).loc main_arg2))) :=
  (W2_arr m ρ c 2).trans ((Product1.final (V1 m ρ) c).trans (by
    rw [show V1 m ρ c main_arg0 = _ from at1_arg0 m ρ c,
      show V1 m ρ c main_arg2 = _ from at1_arg2 m ρ c]))
theorem at2_v1 (c : Dev nD) : W2 m ρ c (Proc.devRef .tc main_v1) = (srcOf (F := Ideal) (m ((c : Thread nD τ).loc main_arg1))) :=
  (W2_of_ne m ρ c main_v1 (by decide)).trans (at1_v1 m ρ c)
theorem at2_v3 (c : Dev nD) : W2 m ρ c (Proc.devRef .tc main_v3) = (dstOf (F := Ideal) (m ((c : Thread nD τ).loc main_arg1))) :=
  (W2_of_ne m ρ c main_v3 (by decide)).trans (at1_v3 m ρ c)
theorem at2_v30 (c : Dev nD) : W2 m ρ c (Proc.devRef .tc main_v30) = (nrmOf (F := Ideal) (m ((c : Thread nD τ).loc main_arg1))) :=
  (W2_of_ne m ρ c main_v30 (by decide)).trans (at1_v30 m ρ c)
theorem at2_v32 (c : Dev nD) : W2 m ρ c (Proc.devRef .tc main_v32) = (selfOf (F := Ideal) (m ((c : Thread nD τ).loc main_arg1))) :=
  (W2_of_ne m ρ c main_v32 (by decide)).trans (at1_v32 m ρ c)
theorem at2_arg3 (c : Dev nD) : W2 m ρ c (Proc.devRef .tc main_arg3) = (m ((c : Thread nD τ).loc main_arg3)) :=
  (W2_of_ne m ρ c main_arg3 (by decide)).trans (at1_arg3 m ρ c)
theorem at2_arg4 (c : Dev nD) : W2 m ρ c (Proc.devRef .tc main_arg4) = (m ((c : Thread nD τ).loc main_arg4)) :=
  (W2_of_ne m ρ c main_arg4 (by decide)).trans (at1_arg4 m ρ c)
theorem at2_arg5 (c : Dev nD) : W2 m ρ c (Proc.devRef .tc main_arg5) = (m ((c : Thread nD τ).loc main_arg5)) :=
  (W2_of_ne m ρ c main_arg5 (by decide)).trans (at1_arg5 m ρ c)
theorem at2_arg6 (c : Dev nD) : W2 m ρ c (Proc.devRef .tc main_arg6) = (m ((c : Thread nD τ).loc main_arg6)) :=
  (W2_of_ne m ρ c main_arg6 (by decide)).trans (at1_arg6 m ρ c)
theorem at2_arg7 (c : Dev nD) : W2 m ρ c (Proc.devRef .tc main_arg7) = (m ((c : Thread nD τ).loc main_arg7)) :=
  (W2_of_ne m ρ c main_arg7 (by decide)).trans (at1_arg7 m ρ c)
/-! ## After the second stretch: the product's neighbour sum -/
theorem at3_v46 (c : Dev nD) : W3 m ρ c (Proc.devRef .tc main_v46) = (aggr64 (F := Ideal) (mm64 (F := Ideal) (m ((c : Thread nD τ).loc main_arg0)) (m ((c : Thread nD τ).loc main_arg2))) (srcOf (F := Ideal) (m ((c : Thread nD τ).loc main_arg1))) (dstOf (F := Ideal) (m ((c : Thread nD τ).loc main_arg1))) (nrmOf (F := Ideal) (m ((c : Thread nD τ).loc main_arg1)))) := by
  have h : W3 m ρ c (Proc.devRef .tc main_v46) = aggr64 (F := Ideal) (W2 m ρ c (Proc.devRef .tc main_v33)) (W2 m ρ c (Proc.devRef .tc main_v1)) (W2 m ρ c (Proc.devRef .tc main_v3)) (W2 m ρ c (Proc.devRef .tc main_v30)) := by
    show StableHlo.after hostOps1 (W2 m ρ c) (Proc.devRef .tc main_v46) = _
    after_results_simp <;> rfl
  rw [h, at2_v33 m ρ c, at2_v1 m ρ c, at2_v3 m ρ c, at2_v30 m ρ c]
theorem at3_v33 (c : Dev nD) : W3 m ρ c (Proc.devRef .tc main_v33) = (mm64 (F := Ideal) (m ((c : Thread nD τ).loc main_arg0)) (m ((c : Thread nD τ).loc main_arg2))) :=
  (show StableHlo.after hostOps1 (W2 m ρ c) (Proc.devRef .tc main_v33) = W2 m ρ c (Proc.devRef .tc main_v33) by
    after_results_simp <;> rfl).trans (at2_v33 m ρ c)
theorem at3_v32 (c : Dev nD) : W3 m ρ c (Proc.devRef .tc main_v32) = (selfOf (F := Ideal) (m ((c : Thread nD τ).loc main_arg1))) :=
  (show StableHlo.after hostOps1 (W2 m ρ c) (Proc.devRef .tc main_v32) = W2 m ρ c (Proc.devRef .tc main_v32) by
    after_results_simp <;> rfl).trans (at2_v32 m ρ c)
theorem at3_arg3 (c : Dev nD) : W3 m ρ c (Proc.devRef .tc main_arg3) = (m ((c : Thread nD τ).loc main_arg3)) :=
  (show StableHlo.after hostOps1 (W2 m ρ c) (Proc.devRef .tc main_arg3) = W2 m ρ c (Proc.devRef .tc main_arg3) by
    after_results_simp <;> rfl).trans (at2_arg3 m ρ c)
theorem at3_v1 (c : Dev nD) : W3 m ρ c (Proc.devRef .tc main_v1) = (srcOf (F := Ideal) (m ((c : Thread nD τ).loc main_arg1))) :=
  (show StableHlo.after hostOps1 (W2 m ρ c) (Proc.devRef .tc main_v1) = W2 m ρ c (Proc.devRef .tc main_v1) by
    after_results_simp <;> rfl).trans (at2_v1 m ρ c)
theorem at3_v3 (c : Dev nD) : W3 m ρ c (Proc.devRef .tc main_v3) = (dstOf (F := Ideal) (m ((c : Thread nD τ).loc main_arg1))) :=
  (show StableHlo.after hostOps1 (W2 m ρ c) (Proc.devRef .tc main_v3) = W2 m ρ c (Proc.devRef .tc main_v3) by
    after_results_simp <;> rfl).trans (at2_v3 m ρ c)
theorem at3_v30 (c : Dev nD) : W3 m ρ c (Proc.devRef .tc main_v30) = (nrmOf (F := Ideal) (m ((c : Thread nD τ).loc main_arg1))) :=
  (show StableHlo.after hostOps1 (W2 m ρ c) (Proc.devRef .tc main_v30) = W2 m ρ c (Proc.devRef .tc main_v30) by
    after_results_simp <;> rfl).trans (at2_v30 m ρ c)
theorem at3_arg4 (c : Dev nD) : W3 m ρ c (Proc.devRef .tc main_arg4) = (m ((c : Thread nD τ).loc main_arg4)) :=
  (show StableHlo.after hostOps1 (W2 m ρ c) (Proc.devRef .tc main_arg4) = W2 m ρ c (Proc.devRef .tc main_arg4) by
    after_results_simp <;> rfl).trans (at2_arg4 m ρ c)
theorem at3_arg5 (c : Dev nD) : W3 m ρ c (Proc.devRef .tc main_arg5) = (m ((c : Thread nD τ).loc main_arg5)) :=
  (show StableHlo.after hostOps1 (W2 m ρ c) (Proc.devRef .tc main_arg5) = W2 m ρ c (Proc.devRef .tc main_arg5) by
    after_results_simp <;> rfl).trans (at2_arg5 m ρ c)
theorem at3_arg6 (c : Dev nD) : W3 m ρ c (Proc.devRef .tc main_arg6) = (m ((c : Thread nD τ).loc main_arg6)) :=
  (show StableHlo.after hostOps1 (W2 m ρ c) (Proc.devRef .tc main_arg6) = W2 m ρ c (Proc.devRef .tc main_arg6) by
    after_results_simp <;> rfl).trans (at2_arg6 m ρ c)
theorem at3_arg7 (c : Dev nD) : W3 m ρ c (Proc.devRef .tc main_arg7) = (m ((c : Thread nD τ).loc main_arg7)) :=
  (show StableHlo.after hostOps1 (W2 m ρ c) (Proc.devRef .tc main_arg7) = W2 m ρ c (Proc.devRef .tc main_arg7) by
    after_results_simp <;> rfl).trans (at2_arg7 m ρ c)
/-! ## After the second region: the first layer's output -/
theorem at4_v47 (c : Dev nD) : W4 m ρ c (Proc.devRef .tc main_v47) = (layer64 (F := Ideal) (m ((c : Thread nD τ).loc main_arg0)) (m ((c : Thread nD τ).loc main_arg1)) (m ((c : Thread nD τ).loc main_arg2)) (m ((c : Thread nD τ).loc main_arg3))) :=
  (W4_arr m ρ c 4).trans ((Combine1.final (V3 m ρ) c).trans (by
    rw [show V3 m ρ c main_v33 = _ from at3_v33 m ρ c,
      show V3 m ρ c main_v46 = _ from at3_v46 m ρ c,
      show V3 m ρ c main_v32 = _ from at3_v32 m ρ c,
      show V3 m ρ c main_arg3 = _ from at3_arg3 m ρ c]
    rfl))
theorem at4_v1 (c : Dev nD) : W4 m ρ c (Proc.devRef .tc main_v1) = (srcOf (F := Ideal) (m ((c : Thread nD τ).loc main_arg1))) :=
  (W4_of_ne m ρ c main_v1 (by decide)).trans (at3_v1 m ρ c)
theorem at4_v3 (c : Dev nD) : W4 m ρ c (Proc.devRef .tc main_v3) = (dstOf (F := Ideal) (m ((c : Thread nD τ).loc main_arg1))) :=
  (W4_of_ne m ρ c main_v3 (by decide)).trans (at3_v3 m ρ c)
theorem at4_v30 (c : Dev nD) : W4 m ρ c (Proc.devRef .tc main_v30) = (nrmOf (F := Ideal) (m ((c : Thread nD τ).loc main_arg1))) :=
  (W4_of_ne m ρ c main_v30 (by decide)).trans (at3_v30 m ρ c)
theorem at4_v32 (c : Dev nD) : W4 m ρ c (Proc.devRef .tc main_v32) = (selfOf (F := Ideal) (m ((c : Thread nD τ).loc main_arg1))) :=
  ((W4_arr m ρ c 2).trans (((dat1 (V3 m ρ) c).arrAt_in 2 rfl _).trans (A_eq1 (V3 m ρ) c 2))).trans (at3_v32 m ρ c)
theorem at4_arg4 (c : Dev nD) : W4 m ρ c (Proc.devRef .tc main_arg4) = (m ((c : Thread nD τ).loc main_arg4)) :=
  (W4_of_ne m ρ c main_arg4 (by decide)).trans (at3_arg4 m ρ c)
theorem at4_arg5 (c : Dev nD) : W4 m ρ c (Proc.devRef .tc main_arg5) = (m ((c : Thread nD τ).loc main_arg5)) :=
  (W4_of_ne m ρ c main_arg5 (by decide)).trans (at3_arg5 m ρ c)
theorem at4_arg6 (c : Dev nD) : W4 m ρ c (Proc.devRef .tc main_arg6) = (m ((c : Thread nD τ).loc main_arg6)) :=
  (W4_of_ne m ρ c main_arg6 (by decide)).trans (at3_arg6 m ρ c)
theorem at4_arg7 (c : Dev nD) : W4 m ρ c (Proc.devRef .tc main_arg7) = (m ((c : Thread nD τ).loc main_arg7)) :=
  (W4_of_ne m ρ c main_arg7 (by decide)).trans (at3_arg7 m ρ c)
end Cert.KernelIdeal.Layers

end
-- ==== Proof.Product2.lean ====
/-
  The second layer's dense product, `out₁ · W₂`, as the third region leaves it.

  The region cuts the 100000 rows of its left operand into 20 blocks of 5000 and, at grid point `t`, writes rows
  `5000 t … 5000 t + 4999` of the result: the product of that row block with the whole weight, accumulated from
  zero.  An entry `(5000 t + p, q)` of a product depends on row `5000 t + p` of the left operand only, and the 20
  row blocks fill the array, so what the region leaves is the whole product — as a sum over the 64 contracted
  entries on the extended reals, where the change of float format before the product is the identity.
-/
import proofs.«133984_j64776696758632_1_alg».proof.Proof.Gen.KernelIdeal.Frame
import proofs.«133984_j64776696758632_1_alg».proof.Proof.Spec
import proofs.«133984_j64776696758632_1_alg».proof.Proof.LibHostDot
import Idealize.ShloMosaic.Lib.Pipeline.Value
import Idealize.ShloMosaic.Lib.ValueIdx

set_option maxRecDepth 16384

noncomputable section

open scoped BigOperators

namespace Cert.KernelIdeal.Product2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand and the result move one row block per point, the weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `5000 t … 5000 t + 4999` of its array. -/
theorem lhs_block (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v47 : S100000x64.Idx → Elt Ideal .f32) k := by
  obtain ⟨e0, e1, -, -, -, -⟩ := idx_facts t
  unfold iblk2
  rw [View.read_apply]
  show V c main_v47 _ = V c main_v47 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The weight's block at every point is the whole weight. -/
theorem rhs_block (c : Dev nD) (t : Fin cfg2.N) (x : S64x64.Idx) :
    (iblk2 V c 1 t : Vec Ideal S64x64 .f32) x = (V c main_arg4 : S64x64.Idx → Elt Ideal .f32) x := by
  obtain ⟨-, -, e2, e3, -, -⟩ := idx_facts t
  unfold iblk2
  rw [View.read_apply]
  show V c main_arg4 _ = V c main_arg4 _
  congr 1
  funext a
  apply Fin.ext
  match a with
  | ⟨0, _⟩ => show win2_1.index t 0 * 64 + 1 * (x 0).val = (x 0).val; rw [e2]; omega
  | ⟨1, _⟩ => show win2_1.index t 1 * 64 + 1 * (x 1).val = (x 1).val; rw [e3]; omega

/-- The body's stored value at `(p, q)`: the sum over the contracted axis. -/
theorem pay_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  simp only [k2_pay1, shapeCast_self]
  exact Cert.LibPlainDot.matmul_zero_apply dot_S5000x64_S64x64_S5000x64_1_0_0_1_n_n_wf none x0 x1 p q

/-- The whole product at an index: the sum over the contracted axis. -/
theorem whole_apply (a : Cert.Spec.Arr Ideal Cert.ReferenceIdeal.S100000x64 .f32) (w : Cert.Spec.Arr Ideal Cert.ReferenceIdeal.S64x64 .f32)
    (i : S100000x64.Idx) :
    Cert.Spec.mm64 (F := Ideal) a w i = ∑ k : Fin 64, a (ix2 (i 0) k) * w (ix2 k (i 1)) := by
  conv_lhs => rw [eq_ix2 i]
  exact Cert.LibHostDot.hostDot_apply Cert.ReferenceIdeal.Gen.dot_S100000x64_S64x64_S100000x64_1_0_0_1_n_n_wf none a w (i 0) (i 1)

/-- WHAT POINT `t` WRITES BACK is block `t` of the whole product of the arrays the region finds. -/
theorem flushed_eq (c : Dev nD) (t : Fin cfg2.N) :
    (dat2 V c).flushed 2 t = ((cfg2.win 2).blk t).view.read (Elt Ideal)
      (Cert.Spec.mm64 (F := Ideal) (V c main_v47) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨-, -, -, -, e4, e5⟩ := idx_facts t
  funext j
  obtain ⟨p, q, rfl⟩ : ∃ (p : Fin 5000) (q : Fin 64), j = ix2 p q := ⟨j 0, j 1, eq_ix2 j⟩
  rw [View.read_apply, whole_apply]
  refine (pay_apply _ _ p q).trans (Finset.sum_congr rfl fun k _ => ?_)
  have h0 : ((((cfg2.win 2).blk t).view.emb (ix2 p q)) 0).val = 5000 * t.val + p.val := by
    show win2_2.index t 0 * 5000 + 1 * p.val = _; rw [e4]; omega
  have h1 : ((((cfg2.win 2).blk t).view.emb (ix2 p q)) 1).val = q.val := by
    show win2_2.index t 1 * 64 + 1 * q.val = _; rw [e5]; omega
  rw [lhs_block V c t (ix2 p k) (ix2 ((((cfg2.win 2).blk t).view.emb (ix2 p q)) 0) k) h0 rfl, rhs_block V c t (ix2 k q)]
  congr 2
  funext a
  apply Fin.ext
  match a with
  | ⟨0, _⟩ => rfl
  | ⟨1, _⟩ => exact h1.symm

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The 20 row blocks fill the array: row `r` is in block `r / 5000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := idx_facts t
  refine ⟨t, flush2_2 t, ?_⟩
  rw [mem_blk]
  intro a
  match a with
  | ⟨0, _⟩ => show win2_2.index t 0 * 5000 ≤ (i 0).val ∧ (i 0).val < win2_2.index t 0 * 5000 + 5000; rw [e4]; show (i 0).val / 5000 * 5000 ≤ _ ∧ _ < (i 0).val / 5000 * 5000 + 5000; omega
  | ⟨1, _⟩ => show win2_2.index t 1 * 64 ≤ (i 1).val ∧ (i 1).val < win2_2.index t 1 * 64 + 64; rw [e5]; omega

/-- THE ARRAY THE REGION LEAVES: the whole product of the arrays it finds. -/
theorem final (c : Dev nD) :
    (dat2 V c).arrAt 2 cfg2.N = Cert.Spec.mm64 (F := Ideal) (V c main_v47) (V c main_arg4) :=
  (dat2 V c).arrAt_eq_of_cover 2 _ (fun t _ => flushed_eq V c t) cover

end Cert.KernelIdeal.Product2

end
-- ==== Proof.Combine2.lean ====
/-
  The second layer's pointwise part with its activation, as the fourth region leaves it.

  At grid point `t` the region reads rows `5000 t … 5000 t + 4999` of the product `h`, of the neighbour sum `agg`
  and of the self-loop column `d`, and the whole bias `b`, and writes the same rows of
  `max ((agg + h * d) + b, 0)`, `d` stretched along a row's 64 entries and `b` down the rows.  Entry `(r, q)` of
  that array depends on row `r` of the three node arrays and on `b q` only, so the 20 row blocks together are the
  combination applied to the whole arrays.
-/
import proofs.«133984_j64776696758632_1_alg».proof.Proof.Gen.KernelIdeal.Frame
import proofs.«133984_j64776696758632_1_alg».proof.Proof.Spec
import proofs.«133984_j64776696758632_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Combine2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibColumn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three node arrays and the result move one row block per point, the bias stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The product's block at point `t` is rows `5000 t … 5000 t + 4999` of its array. -/
theorem h_block (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c main_v48 : S100000x64.Idx → Elt Ideal .f32) k := by
  obtain ⟨e0, e1, -, -, -, -, -, -, -⟩ := idx_facts t
  unfold iblk3
  rw [View.read_apply]
  show V c main_v48 _ = V c main_v48 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The neighbour sum's block at point `t` is the same rows of its array. -/
theorem agg_block (c : Dev nD) (t : Fin cfg3.N) (x : S5000x64.Idx) (k : S100000x64.Idx)
    (hk0 : (k 0).val = 5000 * t.val + (x 0).val) (hk1 : (k 1).val = (x 1).val) :
    (iblk3 V c 1 t : Vec Ideal S5000x64 .f32) x = (V c main_v61 : S100000x64.Idx → Elt Ideal .f32) k := by
  obtain ⟨-, -, e2, e3, -, -, -, -, -⟩ := idx_facts t
  unfold iblk3
  rw [View.read_apply]
  show V c main_v61 _ = V c main_v61 _
  congr 1
  funext a
  apply Fin.ext
  match a with
  | ⟨0, _⟩ => show win3_1.index t 0 * 5000 + 1 * (x 0).val = (k 0).val; rw [e2, hk0]; omega
  | ⟨1, _⟩ => show win3_1.index t 1 * 64 + 1 * (x 1).val = (k 1).val; rw [e3, hk1]; omega

/-- The self-loop column's block at point `t` is the same rows of the column. -/
theorem d_block (c : Dev nD) (t : Fin cfg3.N) (x : S5000x1.Idx) (k : S100000x1.Idx)
    (hk0 : (k 0).val = 5000 * t.val + (x 0).val) (hk1 : (k 1).val = (x 1).val) :
    (iblk3 V c 2 t : Vec Ideal S5000x1 .f32) x = (V c main_v32 : S100000x1.Idx → Elt Ideal .f32) k := by
  obtain ⟨-, -, -, -, e4, e5, -, -, -⟩ := idx_facts t
  unfold iblk3
  rw [View.read_apply]
  show V c main_v32 _ = V c main_v32 _
  congr 1
  funext a
  apply Fin.ext
  match a with
  | ⟨0, _⟩ => show win3_2.index t 0 * 5000 + 1 * (x 0).val = (k 0).val; rw [e4, hk0]; omega
  | ⟨1, _⟩ => show win3_2.index t 1 * 1 + 1 * (x 1).val = (k 1).val; rw [e5, hk1]; omega

/-- The bias's block at every point is the whole bias. -/
theorem b_block (c : Dev nD) (t : Fin cfg3.N) (x : S64.Idx) :
    (iblk3 V c 3 t : Vec Ideal S64 .f32) x = (V c main_arg5 : S64.Idx → Elt Ideal .f32) x := by
  obtain ⟨-, -, -, -, -, -, e6, -, -⟩ := idx_facts t
  unfold iblk3
  rw [View.read_apply]
  show V c main_arg5 _ = V c main_arg5 _
  congr 1
  funext a
  apply Fin.ext
  match a with
  | ⟨0, _⟩ => show win3_3.index t 0 * 64 + 1 * (x 0).val = (x 0).val; rw [e6]; omega

/-- The body's stored value at `(p, q)`. -/
theorem pay_apply (v0 v2 : Vec Ideal S5000x64 .f32) (v4 : Vec Ideal S5000x1 .f32) (v9 : Vec Ideal S64 .f32) (p : Fin 5000) (q : Fin 64) :
    k3_pay1 v0 v2 v4 v9 (ix2 p q)
      = max ((v0 (ix2 p q) + v2 (ix2 p q) * v4 (ix2 p (0 : Fin 1))) + v9 (ix1 q)) (Ideal.ofBits .f32 0x00000000#32) := by
  simp only [k3_pay1, shapeCast_self, maximumf_apply, addf_apply, mulf_apply, broadcast_apply,
    broadcastTo_a1_ab_apply, broadcastTo_1b_ab_apply, shapeCast_a_1a_apply]
  rfl

/-- The whole combination at `(r, q)`. -/
theorem whole_apply (h agg : Vec Ideal Cert.ReferenceIdeal.S100000x64 .f32) (d : Vec Ideal Cert.ReferenceIdeal.S100000x1 .f32)
    (b : Vec Ideal Cert.ReferenceIdeal.S64 .f32) (r : Fin 100000) (q : Fin 64) :
    Cert.Spec.combine64 (F := Ideal) h agg d b (ix2 r q)
      = max ((agg (ix2 r q) + h (ix2 r q) * d (ix2 r (0 : Fin 1))) + b (ix1 q)) (Ideal.ofBits .f32 0x00000000#32) := by
  simp only [Cert.Spec.combine64, maximumf_apply, addf_apply, mulf_apply]
  rw [bcastInDim_a1_ab_apply, bcastInDim_1b_ab_apply, bcastInDim_b_1b_apply,
    bcastInDim_scalar_apply _ _ _ (fun a => a.elim0)]
  rfl

/-- WHAT POINT `t` WRITES BACK is block `t` of the combination of the arrays the region finds. -/
theorem flushed_eq (c : Dev nD) (t : Fin cfg3.N) :
    (dat3 V c).flushed 4 t = ((cfg3.win 4).blk t).view.read (Elt Ideal)
      (Cert.Spec.combine64 (F := Ideal) (V c main_v48) (V c main_v61) (V c main_v32) (V c main_arg5)) := by
  show (cfg3.win 4).cut (grid3.coords t) ((dat3 V c).after 4 t) = _
  rw [after3_4]
  unfold out3_4
  rw [View.canon_unit_zero hz2]
  simp only [View.ld_unit_zero (S := S5000x64) hz2, View.ld_unit_zero (S := S5000x1) hz2, View.ld_unit_zero (S := S64) hz1]
  obtain ⟨-, -, -, -, -, -, -, e7, e8⟩ := idx_facts t
  have ht : t.val < 20 := lt_of_lt_of_eq t.isLt N_3
  funext j
  obtain ⟨p, q, rfl⟩ : ∃ (p : Fin 5000) (q : Fin 64), j = ix2 p q := ⟨j 0, j 1, eq_ix2 j⟩
  have hr : 5000 * t.val + p.val < 100000 := by have := p.isLt; omega
  have hemb : ((cfg3.win 4).blk t).view.emb (ix2 p q) = ix2 (⟨5000 * t.val + p.val, hr⟩ : Fin 100000) q := by
    funext a
    apply Fin.ext
    match a with
    | ⟨0, _⟩ => show win3_4.index t 0 * 5000 + 1 * p.val = 5000 * t.val + p.val; rw [e7]; omega
    | ⟨1, _⟩ => show win3_4.index t 1 * 64 + 1 * q.val = q.val; rw [e8]; omega
  rw [View.read_apply, hemb, whole_apply]
  refine (pay_apply _ _ _ _ p q).trans ?_
  rw [agg_block V c t (ix2 p q) (ix2 (⟨5000 * t.val + p.val, hr⟩ : Fin 100000) q) rfl rfl,
    h_block V c t (ix2 p q) (ix2 (⟨5000 * t.val + p.val, hr⟩ : Fin 100000) q) rfl rfl,
    d_block V c t (ix2 p (0 : Fin 1)) (ix2 (⟨5000 * t.val + p.val, hr⟩ : Fin 100000) (0 : Fin 1)) rfl rfl,
    b_block V c t (ix1 q)]
  rfl

/-- An index of the array is in point `t`'s block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v62).slice (win3_4.rect t)).set ↔ _
  rw [View.set_slice_whole, Rect.mem_set_unit]
  exact Iff.rfl

/-- The 20 row blocks fill the array: row `r` is in block `r / 5000`. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, -, -, -, e7, e8⟩ := idx_facts t
  refine ⟨t, flush3_4 t, ?_⟩
  rw [mem_blk]
  intro a
  match a with
  | ⟨0, _⟩ => show win3_4.index t 0 * 5000 ≤ (i 0).val ∧ (i 0).val < win3_4.index t 0 * 5000 + 5000; rw [e7]; show (i 0).val / 5000 * 5000 ≤ _ ∧ _ < (i 0).val / 5000 * 5000 + 5000; omega
  | ⟨1, _⟩ => show win3_4.index t 1 * 64 ≤ (i 1).val ∧ (i 1).val < win3_4.index t 1 * 64 + 64; rw [e8]; omega

/-- THE ARRAY THE REGION LEAVES: the combination of the arrays it finds. -/
theorem final (c : Dev nD) :
    (dat3 V c).arrAt 4 cfg3.N
      = Cert.Spec.combine64 (F := Ideal) (V c main_v48) (V c main_v61) (V c main_v32) (V c main_arg5) :=
  (dat3 V c).arrAt_eq_of_cover 4 _ (fun t _ => flushed_eq V c t) cover

end Cert.KernelIdeal.Combine2

end
-- ==== Proof.Layer2.lean ====
/-
  The second layer, boundary by boundary: the third region leaves `out₁ · W₂`, the third stretch of host operations
  its neighbour sum, the fourth region the layer's activated output.
-/
import proofs.«133984_j64776696758632_1_alg».proof.Proof.Layer1
import proofs.«133984_j64776696758632_1_alg».proof.Proof.Product2
import proofs.«133984_j64776696758632_1_alg».proof.Proof.Combine2
import Idealize.ShloMosaic.Lib.StableHlo.Run

set_option maxRecDepth 16384

noncomputable section

namespace Cert.KernelIdeal.Layers

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## After the third region: the product `out₁ · W₂` -/
theorem at5_v48 (c : Dev nD) : W5 m ρ c (Proc.devRef .tc main_v48) = (mm64 (F := Ideal) (layer64 (F := Ideal) (m ((c : Thread nD τ).loc main_arg0)) (m ((c : Thread nD τ).loc main_arg1)) (m ((c : Thread nD τ).loc main_arg2)) (m ((c : Thread nD τ).loc main_arg3))) (m ((c : Thread nD τ).loc main_arg4))) :=
  (W5_arr m ρ c 2).trans ((Product2.final (V4 m ρ) c).trans (by
    rw [show V4 m ρ c main_v47 = _ from at4_v47 m ρ c,
      show V4 m ρ c main_arg4 = _ from at4_arg4 m ρ c]))
theorem at5_v1 (c : Dev nD) : W5 m ρ c (Proc.devRef .tc main_v1) = (srcOf (F := Ideal) (m ((c : Thread nD τ).loc main_arg1))) :=
  (W5_of_ne m ρ c main_v1 (by decide)).trans (at4_v1 m ρ c)
theorem at5_v3 (c : Dev nD) : W5 m ρ c (Proc.devRef .tc main_v3) = (dstOf (F := Ideal) (m ((c : Thread nD τ).loc main_arg1))) :=
  (W5_of_ne m ρ c main_v3 (by decide)).trans (at4_v3 m ρ c)
theorem at5_v30 (c : Dev nD) : W5 m ρ c (Proc.devRef .tc main_v30) = (nrmOf (F := Ideal) (m ((c : Thread nD τ).loc main_arg1))) :=
  (W5_of_ne m ρ c main_v30 (by decide)).trans (at4_v30 m ρ c)
theorem at5_v32 (c : Dev nD) : W5 m ρ c (Proc.devRef .tc main_v32) = (selfOf (F := Ideal) (m ((c : Thread nD τ).loc main_arg1))) :=
  (W5_of_ne m ρ c main_v32 (by decide)).trans (at4_v32 m ρ c)
theorem at5_arg5 (c : Dev nD) : W5 m ρ c (Proc.devRef .tc main_arg5) = (m ((c : Thread nD τ).loc main_arg5)) :=
  (W5_of_ne m ρ c main_arg5 (by decide)).trans (at4_arg5 m ρ c)
theorem at5_arg6 (c : Dev nD) : W5 m ρ c (Proc.devRef .tc main_arg6) = (m ((c : Thread nD τ).loc main_arg6)) :=
  (W5_of_ne m ρ c main_arg6 (by decide)).trans (at4_arg6 m ρ c)
theorem at5_arg7 (c : Dev nD) : W5 m ρ c (Proc.devRef .tc main_arg7) = (m ((c : Thread nD τ).loc main_arg7)) :=
  (W5_of_ne m ρ c main_arg7 (by decide)).trans (at4_arg7 m ρ c)
/-! ## After the third stretch: the product's neighbour sum -/
theorem at6_v61 (c : Dev nD) : W6 m ρ c (Proc.devRef .tc main_v61) = (aggr64 (F := Ideal) (mm64 (F := Ideal) (layer64 (F := Ideal) (m ((c : Thread nD τ).loc main_arg0)) (m ((c : Thread nD τ).loc main_arg1)) (m ((c : Thread nD τ).loc main_arg2)) (m ((c : Thread nD τ).loc main_arg3))) (m ((c : Thread nD τ).loc main_arg4))) (srcOf (F := Ideal) (m ((c : Thread nD τ).loc main_arg1))) (dstOf (F := Ideal) (m ((c : Thread nD τ).loc main_arg1))) (nrmOf (F := Ideal) (m ((c : Thread nD τ).loc main_arg1)))) := by
  have h : W6 m ρ c (Proc.devRef .tc main_v61) = aggr64 (F := Ideal) (W5 m ρ c (Proc.devRef .tc main_v48)) (W5 m ρ c (Proc.devRef .tc main_v1)) (W5 m ρ c (Proc.devRef .tc main_v3)) (W5 m ρ c (Proc.devRef .tc main_v30)) := by
    show StableHlo.after hostOps3 (W5 m ρ c) (Proc.devRef .tc main_v61) = _
    after_results_simp <;> rfl
  rw [h, at5_v48 m ρ c, at5_v1 m ρ c, at5_v3 m ρ c, at5_v30 m ρ c]
theorem at6_v48 (c : Dev nD) : W6 m ρ c (Proc.devRef .tc main_v48) = (mm64 (F := Ideal) (layer64 (F := Ideal) (m ((c : Thread nD τ).loc main_arg0)) (m ((c : Thread nD τ).loc main_arg1)) (m ((c : Thread nD τ).loc main_arg2)) (m ((c : Thread nD τ).loc main_arg3))) (m ((c : Thread nD τ).loc main_arg4))) :=
  (show StableHlo.after hostOps3 (W5 m ρ c) (Proc.devRef .tc main_v48) = W5 m ρ c (Proc.devRef .tc main_v48) by
    after_results_simp <;> rfl).trans (at5_v48 m ρ c)
theorem at6_v32 (c : Dev nD) : W6 m ρ c (Proc.devRef .tc main_v32) = (selfOf (F := Ideal) (m ((c : Thread nD τ).loc main_arg1))) :=
  (show StableHlo.after hostOps3 (W5 m ρ c) (Proc.devRef .tc main_v32) = W5 m ρ c (Proc.devRef .tc main_v32) by
    after_results_simp <;> rfl).trans (at5_v32 m ρ c)
theorem at6_arg5 (c : Dev nD) : W6 m ρ c (Proc.devRef .tc main_arg5) = (m ((c : Thread nD τ).loc main_arg5)) :=
  (show StableHlo.after hostOps3 (W5 m ρ c) (Proc.devRef .tc main_arg5) = W5 m ρ c (Proc.devRef .tc main_arg5) by
    after_results_simp <;> rfl).trans (at5_arg5 m ρ c)
theorem at6_v1 (c : Dev nD) : W6 m ρ c (Proc.devRef .tc main_v1) = (srcOf (F := Ideal) (m ((c : Thread nD τ).loc main_arg1))) :=
  (show StableHlo.after hostOps3 (W5 m ρ c) (Proc.devRef .tc main_v1) = W5 m ρ c (Proc.devRef .tc main_v1) by
    after_results_simp <;> rfl).trans (at5_v1 m ρ c)
theorem at6_v3 (c : Dev nD) : W6 m ρ c (Proc.devRef .tc main_v3) = (dstOf (F := Ideal) (m ((c : Thread nD τ).loc main_arg1))) :=
  (show StableHlo.after hostOps3 (W5 m ρ c) (Proc.devRef .tc main_v3) = W5 m ρ c (Proc.devRef .tc main_v3) by
    after_results_simp <;> rfl).trans (at5_v3 m ρ c)
theorem at6_v30 (c : Dev nD) : W6 m ρ c (Proc.devRef .tc main_v30) = (nrmOf (F := Ideal) (m ((c : Thread nD τ).loc main_arg1))) :=
  (show StableHlo.after hostOps3 (W5 m ρ c) (Proc.devRef .tc main_v30) = W5 m ρ c (Proc.devRef .tc main_v30) by
    after_results_simp <;> rfl).trans (at5_v30 m ρ c)
theorem at6_arg6 (c : Dev nD) : W6 m ρ c (Proc.devRef .tc main_arg6) = (m ((c : Thread nD τ).loc main_arg6)) :=
  (show StableHlo.after hostOps3 (W5 m ρ c) (Proc.devRef .tc main_arg6) = W5 m ρ c (Proc.devRef .tc main_arg6) by
    after_results_simp <;> rfl).trans (at5_arg6 m ρ c)
theorem at6_arg7 (c : Dev nD) : W6 m ρ c (Proc.devRef .tc main_arg7) = (m ((c : Thread nD τ).loc main_arg7)) :=
  (show StableHlo.after hostOps3 (W5 m ρ c) (Proc.devRef .tc main_arg7) = W5 m ρ c (Proc.devRef .tc main_arg7) by
    after_results_simp <;> rfl).trans (at5_arg7 m ρ c)
/-! ## After the fourth region: the second layer's output -/
theorem at7_v62 (c : Dev nD) : W7 m ρ c (Proc.devRef .tc main_v62) = (layer64 (F := Ideal) (layer64 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) :=
  (W7_arr m ρ c 4).trans ((Combine2.final (V6 m ρ) c).trans (by
    rw [show V6 m ρ c main_v48 = _ from at6_v48 m ρ c,
      show V6 m ρ c main_v61 = _ from at6_v61 m ρ c,
      show V6 m ρ c main_v32 = _ from at6_v32 m ρ c,
      show V6 m ρ c main_arg5 = _ from at6_arg5 m ρ c]
    rfl))
theorem at7_v1 (c : Dev nD) : W7 m ρ c (Proc.devRef .tc main_v1) = (srcOf (F := Ideal) (m ((c : Thread nD τ).loc main_arg1))) :=
  (W7_of_ne m ρ c main_v1 (by decide)).trans (at6_v1 m ρ c)
theorem at7_v3 (c : Dev nD) : W7 m ρ c (Proc.devRef .tc main_v3) = (dstOf (F := Ideal) (m ((c : Thread nD τ).loc main_arg1))) :=
  (W7_of_ne m ρ c main_v3 (by decide)).trans (at6_v3 m ρ c)
theorem at7_v30 (c : Dev nD) : W7 m ρ c (Proc.devRef .tc main_v30) = (nrmOf (F := Ideal) (m ((c : Thread nD τ).loc main_arg1))) :=
  (W7_of_ne m ρ c main_v30 (by decide)).trans (at6_v30 m ρ c)
theorem at7_v32 (c : Dev nD) : W7 m ρ c (Proc.devRef .tc main_v32) = (selfOf (F := Ideal) (m ((c : Thread nD τ).loc main_arg1))) :=
  ((W7_arr m ρ c 2).trans (((dat3 (V6 m ρ) c).arrAt_in 2 rfl _).trans (A_eq3 (V6 m ρ) c 2))).trans (at6_v32 m ρ c)
theorem at7_arg6 (c : Dev nD) : W7 m ρ c (Proc.devRef .tc main_arg6) = (m ((c : Thread nD τ).loc main_arg6)) :=
  (W7_of_ne m ρ c main_arg6 (by decide)).trans (at6_arg6 m ρ c)
theorem at7_arg7 (c : Dev nD) : W7 m ρ c (Proc.devRef .tc main_arg7) = (m ((c : Thread nD τ).loc main_arg7)) :=
  (W7_of_ne m ρ c main_arg7 (by decide)).trans (at6_arg7 m ρ c)
end Cert.KernelIdeal.Layers

end
-- ==== Proof.Product3.lean ====
/-
  The third layer's dense product, `out₂ · W₃` (one output column), as the fifth region leaves it.

  The region cuts the 100000 rows of its left operand into 20 blocks of 5000 and, at grid point `t`, writes rows
  `5000 t … 5000 t + 4999` of the result: the product of that row block with the whole weight, accumulated from
  zero.  An entry `(5000 t + p, q)` of a product depends on row `5000 t + p` of the left operand only, and the 20
  row blocks fill the array, so what the region leaves is the whole product — as a sum over the 64 contracted
  entries on the extended reals, where the change of float format before the product is the identity.
-/
import proofs.«133984_j64776696758632_1_alg».proof.Proof.Gen.KernelIdeal.Frame
import proofs.«133984_j64776696758632_1_alg».proof.Proof.Spec
import proofs.«133984_j64776696758632_1_alg».proof.Proof.LibHostDot
import Idealize.ShloMosaic.Lib.Pipeline.Value
import Idealize.ShloMosaic.Lib.ValueIdx

set_option maxRecDepth 16384

noncomputable section

open scoped BigOperators

namespace Cert.KernelIdeal.Product3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left operand and the result move one row block per point, the weight stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t` is rows `5000 t … 5000 t + 4999` of its array. -/
theorem lhs_block (c : Dev nD) (t : Fin cfg4.N) (x : S5000x64.Idx) (k : S100000x64.Idx)
    (hk0 : (k 0).val = 5000 * t.val + (x 0).val) (hk1 : (k 1).val = (x 1).val) :
    (iblk4 V c 0 t : Vec Ideal S5000x64 .f32) x = (V c main_v62 : S100000x64.Idx → Elt Ideal .f32) k := by
  obtain ⟨e0, e1, -, -, -, -⟩ := idx_facts t
  unfold iblk4
  rw [View.read_apply]
  show V c main_v62 _ = V c main_v62 _
  congr 1
  funext a
  apply Fin.ext
  match a with
  | ⟨0, _⟩ => show win4_0.index t 0 * 5000 + 1 * (x 0).val = (k 0).val; rw [e0, hk0]; omega
  | ⟨1, _⟩ => show win4_0.index t 1 * 64 + 1 * (x 1).val = (k 1).val; rw [e1, hk1]; omega

/-- The weight's block at every point is the whole weight. -/
theorem rhs_block (c : Dev nD) (t : Fin cfg4.N) (x : S64x1.Idx) :
    (iblk4 V c 1 t : Vec Ideal S64x1 .f32) x = (V c main_arg6 : S64x1.Idx → Elt Ideal .f32) x := by
  obtain ⟨-, -, e2, e3, -, -⟩ := idx_facts t
  unfold iblk4
  rw [View.read_apply]
  show V c main_arg6 _ = V c main_arg6 _
  congr 1
  funext a
  apply Fin.ext
  match a with
  | ⟨0, _⟩ => show win4_1.index t 0 * 64 + 1 * (x 0).val = (x 0).val; rw [e2]; omega
  | ⟨1, _⟩ => show win4_1.index t 1 * 1 + 1 * (x 1).val = (x 1).val; rw [e3]; omega

/-- The body's stored value at `(p, q)`: the sum over the contracted axis. -/
theorem pay_apply (x0 : Vec Ideal S5000x64 .f32) (x1 : Vec Ideal S64x1 .f32) (p : Fin 5000) (q : Fin 1) :
    k4_pay1 x0 x1 (ix2 p q) = ∑ k : Fin 64, x0 (ix2 p k) * x1 (ix2 k q) := by
  simp only [k4_pay1, shapeCast_self]
  exact Cert.LibPlainDot.matmul_zero_apply dot_S5000x64_S64x1_S5000x1_1_0_0_1_n_n_wf none x0 x1 p q

/-- The whole product at an index: the sum over the contracted axis. -/
theorem whole_apply (a : Cert.Spec.Arr Ideal Cert.ReferenceIdeal.S100000x64 .f32) (w : Cert.Spec.Arr Ideal Cert.ReferenceIdeal.S64x1 .f32)
    (i : S100000x1.Idx) :
    Cert.Spec.mm1 (F := Ideal) a w i = ∑ k : Fin 64, a (ix2 (i 0) k) * w (ix2 k (i 1)) := by
  conv_lhs => rw [eq_ix2 i]
  exact Cert.LibHostDot.hostDot_apply Cert.ReferenceIdeal.Gen.dot_S100000x64_S64x1_S100000x1_1_0_0_1_n_n_wf none a w (i 0) (i 1)

/-- WHAT POINT `t` WRITES BACK is block `t` of the whole product of the arrays the region finds. -/
theorem flushed_eq (c : Dev nD) (t : Fin cfg4.N) :
    (dat4 V c).flushed 2 t = ((cfg4.win 2).blk t).view.read (Elt Ideal)
      (Cert.Spec.mm1 (F := Ideal) (V c main_v62) (V c main_arg6)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x1) hz]
  obtain ⟨-, -, -, -, e4, e5⟩ := idx_facts t
  funext j
  obtain ⟨p, q, rfl⟩ : ∃ (p : Fin 5000) (q : Fin 1), j = ix2 p q := ⟨j 0, j 1, eq_ix2 j⟩
  rw [View.read_apply, whole_apply]
  refine (pay_apply _ _ p q).trans (Finset.sum_congr rfl fun k _ => ?_)
  have h0 : ((((cfg4.win 2).blk t).view.emb (ix2 p q)) 0).val = 5000 * t.val + p.val := by
    show win4_2.index t 0 * 5000 + 1 * p.val = _; rw [e4]; omega
  have h1 : ((((cfg4.win 2).blk t).view.emb (ix2 p q)) 1).val = q.val := by
    show win4_2.index t 1 * 1 + 1 * q.val = _; rw [e5]; omega
  rw [lhs_block V c t (ix2 p k) (ix2 ((((cfg4.win 2).blk t).view.emb (ix2 p q)) 0) k) h0 rfl, rhs_block V c t (ix2 k q)]
  congr 2
  funext a
  apply Fin.ext
  match a with
  | ⟨0, _⟩ => rfl
  | ⟨1, _⟩ => exact h1.symm

/-- An index of the array is in point `t`'s block iff each coordinate is in the block's range on its axis. -/
theorem mem_blk (t : Fin cfg4.N) (i : S100000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v63).slice (win4_2.rect t)).set ↔ _
  rw [View.set_slice_whole, Rect.mem_set_unit]
  exact Iff.rfl

/-- The 20 row blocks fill the array: row `r` is in block `r / 5000`. -/
theorem cover (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 20 := N_4
  let t : Fin cfg4.N := ⟨(i 0).val / 5000, by rw [hN]; omega⟩
  obtain ⟨-, -, -, -, e4, e5⟩ := idx_facts t
  refine ⟨t, flush4_2 t, ?_⟩
  rw [mem_blk]
  intro a
  match a with
  | ⟨0, _⟩ => show win4_2.index t 0 * 5000 ≤ (i 0).val ∧ (i 0).val < win4_2.index t 0 * 5000 + 5000; rw [e4]; show (i 0).val / 5000 * 5000 ≤ _ ∧ _ < (i 0).val / 5000 * 5000 + 5000; omega
  | ⟨1, _⟩ => show win4_2.index t 1 * 1 ≤ (i 1).val ∧ (i 1).val < win4_2.index t 1 * 1 + 1; rw [e5]; omega

/-- THE ARRAY THE REGION LEAVES: the whole product of the arrays it finds. -/
theorem final (c : Dev nD) :
    (dat4 V c).arrAt 2 cfg4.N = Cert.Spec.mm1 (F := Ideal) (V c main_v62) (V c main_arg6) :=
  (dat4 V c).arrAt_eq_of_cover 2 _ (fun t _ => flushed_eq V c t) cover

end Cert.KernelIdeal.Product3

end
-- ==== Proof.Combine3.lean ====
/-
  The last layer's pointwise part (one column, no activation), as the sixth region leaves it.

  At grid point `t` the region reads rows `5000 t … 5000 t + 4999` of the one-column product `h`, of the neighbour
  sum `agg` and of the self-loop column `d`, and the one-entry bias `b`, and writes the same rows of
  `(agg + h * d) + b`.  Entry `r` depends on entry `r` of the three columns and on `b` only, so the 20 row blocks
  together are the combination applied to the whole columns.
-/
import proofs.«133984_j64776696758632_1_alg».proof.Proof.Gen.KernelIdeal.Frame
import proofs.«133984_j64776696758632_1_alg».proof.Proof.Spec
import proofs.«133984_j64776696758632_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Combine3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibColumn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three columns and the result move one row block per point, the bias stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- The product's block at point `t` is rows `5000 t … 5000 t + 4999` of its column. -/
theorem h_block (c : Dev nD) (t : Fin cfg5.N) (x : S5000x1.Idx) (k : S100000x1.Idx)
    (hk0 : (k 0).val = 5000 * t.val + (x 0).val) (hk1 : (k 1).val = (x 1).val) :
    (iblk5 V c 0 t : Vec Ideal S5000x1 .f32) x = (V c main_v63 : S100000x1.Idx → Elt Ideal .f32) k := by
  obtain ⟨e0, e1, -, -, -, -, -, -, -⟩ := idx_facts t
  unfold iblk5
  rw [View.read_apply]
  show V c main_v63 _ = V c main_v63 _
  congr 1
  funext a
  apply Fin.ext
  match a with
  | ⟨0, _⟩ => show win5_0.index t 0 * 5000 + 1 * (x 0).val = (k 0).val; rw [e0, hk0]; omega
  | ⟨1, _⟩ => show win5_0.index t 1 * 1 + 1 * (x 1).val = (k 1).val; rw [e1, hk1]; omega

/-- The neighbour sum's block at point `t` is rows `5000 t … 5000 t + 4999` of its column. -/
theorem agg_block (c : Dev nD) (t : Fin cfg5.N) (x : S5000x1.Idx) (k : S100000x1.Idx)
    (hk0 : (k 0).val = 5000 * t.val + (x 0).val) (hk1 : (k 1).val = (x 1).val) :
    (iblk5 V c 1 t : Vec Ideal S5000x1 .f32) x = (V c main_v75 : S100000x1.Idx → Elt Ideal .f32) k := by
  obtain ⟨-, -, e0, e1, -, -, -, -, -⟩ := idx_facts t
  unfold iblk5
  rw [View.read_apply]
  show V c main_v75 _ = V c main_v75 _
  congr 1
  funext a
  apply Fin.ext
  match a with
  | ⟨0, _⟩ => show win5_1.index t 0 * 5000 + 1 * (x 0).val = (k 0).val; rw [e0, hk0]; omega
  | ⟨1, _⟩ => show win5_1.index t 1 * 1 + 1 * (x 1).val = (k 1).val; rw [e1, hk1]; omega

/-- The self-loop column's block at point `t` is rows `5000 t … 5000 t + 4999` of its column. -/
theorem d_block (c : Dev nD) (t : Fin cfg5.N) (x : S5000x1.Idx) (k : S100000x1.Idx)
    (hk0 : (k 0).val = 5000 * t.val + (x 0).val) (hk1 : (k 1).val = (x 1).val) :
    (iblk5 V c 2 t : Vec Ideal S5000x1 .f32) x = (V c main_v32 : S100000x1.Idx → Elt Ideal .f32) k := by
  obtain ⟨-, -, -, -, e0, e1, -, -, -⟩ := idx_facts t
  unfold iblk5
  rw [View.read_apply]
  show V c main_v32 _ = V c main_v32 _
  congr 1
  funext a
  apply Fin.ext
  match a with
  | ⟨0, _⟩ => show win5_2.index t 0 * 5000 + 1 * (x 0).val = (k 0).val; rw [e0, hk0]; omega
  | ⟨1, _⟩ => show win5_2.index t 1 * 1 + 1 * (x 1).val = (k 1).val; rw [e1, hk1]; omega

/-- The bias's block at every point is the whole (one-entry) bias. -/
theorem b_block (c : Dev nD) (t : Fin cfg5.N) (x : S1.Idx) :
    (iblk5 V c 3 t : Vec Ideal S1 .f32) x = (V c main_arg7 : S1.Idx → Elt Ideal .f32) x := by
  obtain ⟨-, -, -, -, -, -, e6, -, -⟩ := idx_facts t
  unfold iblk5
  rw [View.read_apply]
  show V c main_arg7 _ = V c main_arg7 _
  congr 1
  funext a
  apply Fin.ext
  match a with
  | ⟨0, _⟩ => show win5_3.index t 0 * 1 + 1 * (x 0).val = (x 0).val; rw [e6]; omega

/-- The body's stored value at `(p, u)`. -/
theorem pay_apply (v0 v2 v4 : Vec Ideal S5000x1 .f32) (v8 : Vec Ideal S1 .f32) (p : Fin 5000) (u : Fin 1) :
    k5_pay1 v0 v2 v4 v8 (ix2 p u) = (v0 (ix2 p u) + v2 (ix2 p u) * v4 (ix2 p u)) + v8 (ix1 u) := by
  simp only [k5_pay1, shapeCast_self, addf_apply, mulf_apply, broadcastTo_1b_ab_apply, shapeCast_a_1a_apply]

/-- The whole combination at `(r, u)`. -/
theorem whole_apply (h agg d : Vec Ideal Cert.ReferenceIdeal.S100000x1 .f32)
    (b : Vec Ideal Cert.ReferenceIdeal.S1 .f32) (r : Fin 100000) (u : Fin 1) :
    Cert.Spec.combine1 (F := Ideal) h agg d b (ix2 r u) = (agg (ix2 r u) + h (ix2 r u) * d (ix2 r u)) + b (ix1 u) := by
  simp only [Cert.Spec.combine1, addf_apply, mulf_apply]
  rw [bcastInDim_1b_ab_apply, bcastInDim_b_1b_apply]

/-- WHAT POINT `t` WRITES BACK is block `t` of the combination of the columns the region finds. -/
theorem flushed_eq (c : Dev nD) (t : Fin cfg5.N) :
    (dat5 V c).flushed 4 t = ((cfg5.win 4).blk t).view.read (Elt Ideal)
      (Cert.Spec.combine1 (F := Ideal) (V c main_v63) (V c main_v75) (V c main_v32) (V c main_arg7)) := by
  show (cfg5.win 4).cut (grid5.coords t) ((dat5 V c).after 4 t) = _
  rw [after5_4]
  unfold out5_4
  rw [View.canon_unit_zero hz2]
  simp only [View.ld_unit_zero (S := S5000x1) hz2, View.ld_unit_zero (S := S1) hz1]
  obtain ⟨-, -, -, -, -, -, -, e7, e8⟩ := idx_facts t
  have ht : t.val < 20 := lt_of_lt_of_eq t.isLt N_5
  funext j
  obtain ⟨p, u, rfl⟩ : ∃ (p : Fin 5000) (u : Fin 1), j = ix2 p u := ⟨j 0, j 1, eq_ix2 j⟩
  have hr : 5000 * t.val + p.val < 100000 := by have := p.isLt; omega
  have hemb : ((cfg5.win 4).blk t).view.emb (ix2 p u) = ix2 (⟨5000 * t.val + p.val, hr⟩ : Fin 100000) u := by
    funext a
    apply Fin.ext
    match a with
    | ⟨0, _⟩ => show win5_4.index t 0 * 5000 + 1 * p.val = 5000 * t.val + p.val; rw [e7]; omega
    | ⟨1, _⟩ => show win5_4.index t 1 * 1 + 1 * u.val = u.val; rw [e8]; omega
  rw [View.read_apply, hemb, whole_apply]
  refine (pay_apply _ _ _ _ p u).trans ?_
  rw [agg_block V c t (ix2 p u) (ix2 (⟨5000 * t.val + p.val, hr⟩ : Fin 100000) u) rfl rfl,
    h_block V c t (ix2 p u) (ix2 (⟨5000 * t.val + p.val, hr⟩ : Fin 100000) u) rfl rfl,
    d_block V c t (ix2 p u) (ix2 (⟨5000 * t.val + p.val, hr⟩ : Fin 100000) u) rfl rfl,
    b_block V c t (ix1 u)]
  rfl

/-- An index of the array is in point `t`'s block iff each coordinate is in the block's range on its axis. -/
theorem mem_blk (t : Fin cfg5.N) (i : S100000x1.Idx) :
    i ∈ ((cfg5.win 4).blk t).view.set ↔ ∀ a : Fin 2, win5_4.index t a * S5000x1.size a ≤ (i a).val ∧ (i a).val < win5_4.index t a * S5000x1.size a + S5000x1.size a := by
  show i ∈ ((View.whole main_v76).slice (win5_4.rect t)).set ↔ _
  rw [View.set_slice_whole, Rect.mem_set_unit]
  exact Iff.rfl

/-- The 20 row blocks fill the column: row `r` is in block `r / 5000`. -/
theorem cover (i : S100000x1.Idx) :
    ∃ t : Fin cfg5.N, (cfg5.win 4).flush t = true ∧ i ∈ ((cfg5.win 4).blk t).view.set := by
  have hi0 : (i 0).val < 100000 := (i 0).isLt
  have hi1 : (i 1).val < 1 := (i 1).isLt
  have hN : cfg5.N = 20 := N_5
  let t : Fin cfg5.N := ⟨(i 0).val / 5000, by rw [hN]; omega⟩
  obtain ⟨-, -, -, -, -, -, -, e7, e8⟩ := idx_facts t
  refine ⟨t, flush5_4 t, ?_⟩
  rw [mem_blk]
  intro a
  match a with
  | ⟨0, _⟩ => show win5_4.index t 0 * 5000 ≤ (i 0).val ∧ (i 0).val < win5_4.index t 0 * 5000 + 5000; rw [e7]; show (i 0).val / 5000 * 5000 ≤ _ ∧ _ < (i 0).val / 5000 * 5000 + 5000; omega
  | ⟨1, _⟩ => show win5_4.index t 1 * 1 ≤ (i 1).val ∧ (i 1).val < win5_4.index t 1 * 1 + 1; rw [e8]; omega

/-- THE ARRAY THE REGION LEAVES: the combination of the columns it finds. -/
theorem final (c : Dev nD) :
    (dat5 V c).arrAt 4 cfg5.N
      = Cert.Spec.combine1 (F := Ideal) (V c main_v63) (V c main_v75) (V c main_v32) (V c main_arg7) :=
  (dat5 V c).arrAt_eq_of_cover 4 _ (fun t _ => flushed_eq V c t) cover

end Cert.KernelIdeal.Combine3

end
-- ==== Proof.Layer3.lean ====
/-
  The third layer, boundary by boundary: the fifth region leaves `out₂ · W₃`, the last stretch of host operations its
  neighbour sum, the sixth region the network's result.
-/
import proofs.«133984_j64776696758632_1_alg».proof.Proof.Layer2
import proofs.«133984_j64776696758632_1_alg».proof.Proof.Product3
import proofs.«133984_j64776696758632_1_alg».proof.Proof.Combine3
import Idealize.ShloMosaic.Lib.StableHlo.Run

set_option maxRecDepth 16384

noncomputable section

namespace Cert.KernelIdeal.Layers

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## After the fifth region: the product `out₂ · W₃` -/
theorem at8_v63 (c : Dev nD) : W8 m ρ c (Proc.devRef .tc main_v63) = (mm1 (F := Ideal) (layer64 (F := Ideal) (layer64 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) :=
  (W8_arr m ρ c 2).trans ((Product3.final (V7 m ρ) c).trans (by
    rw [show V7 m ρ c main_v62 = _ from at7_v62 m ρ c,
      show V7 m ρ c main_arg6 = _ from at7_arg6 m ρ c]))
theorem at8_v1 (c : Dev nD) : W8 m ρ c (Proc.devRef .tc main_v1) = (srcOf (F := Ideal) (m ((c : Thread nD τ).loc main_arg1))) :=
  (W8_of_ne m ρ c main_v1 (by decide)).trans (at7_v1 m ρ c)
theorem at8_v3 (c : Dev nD) : W8 m ρ c (Proc.devRef .tc main_v3) = (dstOf (F := Ideal) (m ((c : Thread nD τ).loc main_arg1))) :=
  (W8_of_ne m ρ c main_v3 (by decide)).trans (at7_v3 m ρ c)
theorem at8_v30 (c : Dev nD) : W8 m ρ c (Proc.devRef .tc main_v30) = (nrmOf (F := Ideal) (m ((c : Thread nD τ).loc main_arg1))) :=
  (W8_of_ne m ρ c main_v30 (by decide)).trans (at7_v30 m ρ c)
theorem at8_v32 (c : Dev nD) : W8 m ρ c (Proc.devRef .tc main_v32) = (selfOf (F := Ideal) (m ((c : Thread nD τ).loc main_arg1))) :=
  (W8_of_ne m ρ c main_v32 (by decide)).trans (at7_v32 m ρ c)
theorem at8_arg7 (c : Dev nD) : W8 m ρ c (Proc.devRef .tc main_arg7) = (m ((c : Thread nD τ).loc main_arg7)) :=
  (W8_of_ne m ρ c main_arg7 (by decide)).trans (at7_arg7 m ρ c)
/-! ## After the last stretch: the product's neighbour sum -/
theorem at9_v75 (c : Dev nD) : W9 m ρ c (Proc.devRef .tc main_v75) = (aggr1 (F := Ideal) (mm1 (F := Ideal) (layer64 (F := Ideal) (layer64 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) (srcOf (F := Ideal) (m ((c : Thread nD τ).loc main_arg1))) (dstOf (F := Ideal) (m ((c : Thread nD τ).loc main_arg1))) (nrmOf (F := Ideal) (m ((c : Thread nD τ).loc main_arg1)))) := by
  have h : W9 m ρ c (Proc.devRef .tc main_v75) = aggr1 (F := Ideal) (W8 m ρ c (Proc.devRef .tc main_v63)) (W8 m ρ c (Proc.devRef .tc main_v1)) (W8 m ρ c (Proc.devRef .tc main_v3)) (W8 m ρ c (Proc.devRef .tc main_v30)) := by
    show StableHlo.after hostOps5 (W8 m ρ c) (Proc.devRef .tc main_v75) = _
    after_results_simp <;> rfl
  rw [h, at8_v63 m ρ c, at8_v1 m ρ c, at8_v3 m ρ c, at8_v30 m ρ c]
theorem at9_v63 (c : Dev nD) : W9 m ρ c (Proc.devRef .tc main_v63) = (mm1 (F := Ideal) (layer64 (F := Ideal) (layer64 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6))) :=
  (show StableHlo.after hostOps5 (W8 m ρ c) (Proc.devRef .tc main_v63) = W8 m ρ c (Proc.devRef .tc main_v63) by
    after_results_simp <;> rfl).trans (at8_v63 m ρ c)
theorem at9_v32 (c : Dev nD) : W9 m ρ c (Proc.devRef .tc main_v32) = (selfOf (F := Ideal) (m ((c : Thread nD τ).loc main_arg1))) :=
  (show StableHlo.after hostOps5 (W8 m ρ c) (Proc.devRef .tc main_v32) = W8 m ρ c (Proc.devRef .tc main_v32) by
    after_results_simp <;> rfl).trans (at8_v32 m ρ c)
theorem at9_arg7 (c : Dev nD) : W9 m ρ c (Proc.devRef .tc main_arg7) = (m ((c : Thread nD τ).loc main_arg7)) :=
  (show StableHlo.after hostOps5 (W8 m ρ c) (Proc.devRef .tc main_arg7) = W8 m ρ c (Proc.devRef .tc main_arg7) by
    after_results_simp <;> rfl).trans (at8_arg7 m ρ c)
/-! ## After the sixth region: THE RESULT is the network of the arguments -/
theorem at10_v76 (c : Dev nD) : W10 m ρ c (Proc.devRef .tc main_v76) = (net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W10_arr m ρ c 4).trans ((Combine3.final (V9 m ρ) c).trans (by
    rw [show V9 m ρ c main_v63 = _ from at9_v63 m ρ c,
      show V9 m ρ c main_v75 = _ from at9_v75 m ρ c,
      show V9 m ρ c main_v32 = _ from at9_v32 m ρ c,
      show V9 m ρ c main_arg7 = _ from at9_arg7 m ρ c]
    rfl))

end Cert.KernelIdeal.Layers

end
-- ==== Proof.RefIsSpec.lean ====
/-
  The reference computes the network of `Spec`: its operations, read in order, are the specification's pieces with
  the degree, the edge weights and the self-loop weights recomputed per layer from the same edge list — the same
  terms, so nothing is opened.
-/
import proofs.«133984_j64776696758632_1_alg».proof.Proof.Gen.ReferenceIdeal.Read
import proofs.«133984_j64776696758632_1_alg».proof.Proof.Spec

noncomputable section

namespace Cert.RefIsSpec

open Idealize.ShloMosaic Cert.ReferenceIdeal Cert.ReferenceIdeal.Read Cert.Spec

variable {F : FTy → Type} [FloatOps F]

variable (x : Arr F S100000x64 .f32) (e : Arr F S2x1600000 .i32) (w1 : Arr F S64x64 .f32) (b1 : Arr F S64 .f32)
  (w2 : Arr F S64x64 .f32) (b2 : Arr F S64 .f32) (w3 : Arr F S64x1 .f32) (b3 : Arr F S1 .f32)

theorem src_eq : val_main_v1 (F := F) e = srcOf e := rfl
theorem dst_eq : val_main_v3 (F := F) e = dstOf e := rfl
theorem dinv1 : val_main_v16 (F := F) e = dinvOf e := rfl
theorem dinv2 : val_main_v66 (F := F) e = dinvOf e := rfl
theorem dinv3 : val_main_v116 (F := F) e = dinvOf e := rfl
theorem nrm1 : val_main_v31 (F := F) e = nrmOf e := rfl
theorem nrm2 : val_main_v81 (F := F) e = nrmOf e := rfl
theorem nrm3 : val_main_v131 (F := F) e = nrmOf e := rfl
theorem self1 : val_main_v46 (F := F) e = selfOf e := rfl
theorem self2 : val_main_v96 (F := F) e = selfOf e := rfl
theorem self3 : val_main_v145 (F := F) e = selfOf e := rfl

/-- The first layer's activated output. -/
theorem out1 : val_main_v53 (F := F) x e w1 b1 = layer64 x e w1 b1 := rfl

/-- The second layer's activated output, over the first's. -/
theorem out2 : val_main_v103 (F := F) x e w1 b1 w2 b2 = layer64 (val_main_v53 (F := F) x e w1 b1) e w2 b2 := rfl

/-- The result, over the second layer's output. -/
theorem out3 : val_main_v150 (F := F) x e w1 b1 w2 b2 w3 b3 = layer1 (val_main_v103 (F := F) x e w1 b1 w2 b2) e w3 b3 := rfl

/-- THE REFERENCE'S RESULT IS THE NETWORK of its arguments. -/
theorem result : val_main_v150 (F := F) x e w1 b1 w2 b2 w3 b3 = net x e w1 b1 w2 b2 w3 b3 := by
  rw [out3, out2, out1]; rfl

end Cert.RefIsSpec

end
-- ==== Proof.lean ====
/-
  A three-layer graph convolution (100000 nodes, 64 features, 1600000 edges): the kernel program against its plain
  reference, over the extended reals.

  Both programs compute, per layer, `(Σ_{e : dst e = i} h (src e) · nrm e + h i · dinv i ²) + b` of `h = a · W`, with
  `dinv = (1 + in-degree)^(-1/2)` and `nrm e = dinv (src e) · dinv (dst e)`, a `max (·, 0)` after the first two layers.
  The gathers, the scatter-additions and the degree arithmetic are the same host operations in both and are never
  opened.  The kernel program differs in the dense part only: each product `a · W` is taken by a launched region row
  block by row block (its operands' format changed first, the identity on the extended reals), and each pointwise
  combination by another region, block by block.  A product's entry depends on one row of `a`, a combination's on
  one row of its operands, and the blocks fill the arrays: so each region leaves the whole-array operation of what
  it finds (`Product1` … `Combine3`), the buffers between regions are the host's operations of those (`Layer1` …
  `Layer3`), and the result is the network of the arguments (`Spec.net`) — which is what the reference's operations,
  read in order, compute (`RefIsSpec`).  No law of arithmetic beyond `0 + s = s` is used, so the finiteness of the
  inputs is not needed.
-/
import proofs.«133984_j64776696758632_1_alg».proof.Defs
import proofs.«133984_j64776696758632_1_alg».proof.Proof.Gen.Kernel
import proofs.«133984_j64776696758632_1_alg».proof.Proof.Gen.Kernel.Skeleton
import proofs.«133984_j64776696758632_1_alg».proof.Proof.Gen.Kernel.Launch
import proofs.«133984_j64776696758632_1_alg».proof.Proof.Gen.Kernel.Points
import proofs.«133984_j64776696758632_1_alg».proof.Proof.Gen.Kernel.Frame
import proofs.«133984_j64776696758632_1_alg».proof.Proof.Gen.KernelIdeal
import proofs.«133984_j64776696758632_1_alg».proof.Proof.Gen.KernelIdeal.Skeleton
import proofs.«133984_j64776696758632_1_alg».proof.Proof.Gen.KernelIdeal.Launch
import proofs.«133984_j64776696758632_1_alg».proof.Proof.Gen.KernelIdeal.Points
import proofs.«133984_j64776696758632_1_alg».proof.Proof.Gen.KernelIdeal.Frame
import proofs.«133984_j64776696758632_1_alg».proof.Proof.Gen.ReferenceIdeal
import proofs.«133984_j64776696758632_1_alg».proof.Proof.Gen.ReferenceIdeal.Run
import proofs.«133984_j64776696758632_1_alg».proof.Proof.Gen.ReferenceIdeal.Read
import proofs.«133984_j64776696758632_1_alg».proof.Proof.Gen.Pre_finite_inputs
import proofs.«133984_j64776696758632_1_alg».proof.Proof.KernelRun
import proofs.«133984_j64776696758632_1_alg».proof.Proof.Layer3
import proofs.«133984_j64776696758632_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the (agreeing) arguments in their result. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Layers.at10_v76 m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v150_eq, Cert.RefIsSpec.result,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
